-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16x128x128 : Shape := ⟨5, ![8, 64, 16, 128, 128]⟩
abbrev S64 : Shape := ⟨1, ![64]⟩
abbrev S_ : Shape := ⟨0, ![]⟩

class Facts : Prop where
  bcast_S_S8x64x16x128x128 : S_.BroadcastsInDim S8x64x16x128x128 (![] : Fin 0 → Fin S8x64x16x128x128.rank)
  reducesTo_S8x64x16x128x128_S_d0_1_2_3_4 : S8x64x16x128x128.ReducesTo [0, 1, 2, 3, 4] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8x64x16x128x128 .f32) (main_arg1 : FVec F S64 .f32) : IVec S_ 1 :=
  let main_v0 : FVec F S8x64x16x128x128 .f32 := Host.absf main_arg0
  let main_cst : FVec F S_ .f32 := constant S_ .f32 0x7F800000#32
  let main_v1 : FVec F S8x64x16x128x128 .f32 := broadcastInDim S8x64x16x128x128 ![] bcast_S_S8x64x16x128x128 main_cst
  let main_v2 : IVec S8x64x16x128x128 1 := cmpf .olt main_v0 main_v1
  let main_c : IVec S_ 1 := constantI S_ 1 1#1
  let main_v3 : IVec S_ 1 := (fun x v => Host.reduce IntOp.andi x v reducesTo_S8x64x16x128x128_S_d0_1_2_3_4 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S8x64x16x128x128 : Shape := ⟨5, ![8, 64, 16, 128, 128]⟩
abbrev S64 : Shape := ⟨1, ![64]⟩
abbrev S64x1x1 : Shape := ⟨3, ![64, 1, 1]⟩
abbrev S8x64x128x128 : Shape := ⟨4, ![8, 64, 128, 128]⟩
abbrev S1x64x16x32x128 : Shape := ⟨5, ![1, 64, 16, 32, 128]⟩
abbrev S1x64x32x128 : Shape := ⟨4, ![1, 64, 32, 128]⟩
abbrev S64x32x128 : Shape := ⟨3, ![64, 32, 128]⟩
abbrev S1x64x1x32x128 : Shape := ⟨5, ![1, 64, 1, 32, 128]⟩
abbrev S32x128 : Shape := ⟨2, ![32, 128]⟩
abbrev S1x32x128 : Shape := ⟨3, ![1, 32, 128]⟩

abbrev nBuf : Space → Nat
  | .hbm => 4
  | .vmem => 5
  | .smem => 0
  | _ => 0

abbrev bufTy : (tb : Table) → Fin (tcTables nBuf tb) → BufTy
  | .hbm, ⟨0, _⟩ => ⟨S8x64x16x128x128, .f32⟩
  | .hbm, ⟨1, _⟩ => ⟨S64, .f32⟩
  | .hbm, ⟨2, _⟩ => ⟨S64x1x1, .f32⟩
  | .hbm, ⟨3, _⟩ => ⟨S8x64x128x128, .f32⟩
  | .local _ .vmem, ⟨0, _⟩ => ⟨S1x64x16x32x128, .f32⟩
  | .local _ .vmem, ⟨1, _⟩ => ⟨S1x64x16x32x128, .f32⟩
  | .local _ .vmem, ⟨2, _⟩ => ⟨S64x1x1, .f32⟩
  | .local _ .vmem, ⟨3, _⟩ => ⟨S1x64x32x128, .f32⟩
  | .local _ .vmem, ⟨4, _⟩ => ⟨S1x64x32x128, .f32⟩
  | _, _ => ⟨S8x64x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x16x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64_S64x1x1 : S64.ShapeCasts S64x1x1
  inb_S1x64x16x32x128_S1x64x1x32x128_0_0_0_0_0 : ∀ a, (![0, 0, 0, 0, 0] : Fin 5 → Nat) a + S1x64x1x32x128.size a ≤ S1x64x16x32x128.size a
  h_S1x64x1x32x128 : 0 < S1x64x1x32x128.numel
  shapeCasts_S1x64x1x32x128_S64x32x128 : S1x64x1x32x128.ShapeCasts S64x32x128
  inb_S1x64x16x32x128_S1x64x1x32x128_0_0_1_0_0 : ∀ a, (![0, 0, 1, 0, 0] : Fin 5 → Nat) a + S1x64x1x32x128.size a ≤ S1x64x16x32x128.size a
  inb_S1x64x16x32x128_S1x64x1x32x128_0_0_2_0_0 : ∀ a, (![0, 0, 2, 0, 0] : Fin 5 → Nat) a + S1x64x1x32x128.size a ≤ S1x64x16x32x128.size a
  inb_S1x64x16x32x128_S1x64x1x32x128_0_0_3_0_0 : ∀ a, (![0, 0, 3, 0, 0] : Fin 5 → Nat) a + S1x64x1x32x128.size a ≤ S1x64x16x32x128.size a
  inb_S1x64x16x32x128_S1x64x1x32x128_0_0_4_0_0 : ∀ a, (![0, 0, 4, 0, 0] : Fin 5 → Nat) a + S1x64x1x32x128.size a ≤ S1x64x16x32x128.size a
  inb_S1x64x16x32x128_S1x64x1x32x128_0_0_5_0_0 : ∀ a, (![0, 0, 5, 0, 0] : Fin 5 → Nat) a + S1x64x1x32x128.size a ≤ S1x64x16x32x128.size a
  inb_S1x64x16x32x128_S1x64x1x32x128_0_0_6_0_0 : ∀ a, (![0, 0, 6, 0, 0] : Fin 5 → Nat) a + S1x64x1x32x128.size a ≤ S1x64x16x32x128.size a
  inb_S1x64x16x32x128_S1x64x1x32x128_0_0_7_0_0 : ∀ a, (![0, 0, 7, 0, 0] : Fin 5 → Nat) a + S1x64x1x32x128.size a ≤ S1x64x16x32x128.size a
  inb_S1x64x16x32x128_S1x64x1x32x128_0_0_8_0_0 : ∀ a, (![0, 0, 8, 0, 0] : Fin 5 → Nat) a + S1x64x1x32x128.size a ≤ S1x64x16x32x128.size a
  inb_S1x64x16x32x128_S1x64x1x32x128_0_0_9_0_0 : ∀ a, (![0, 0, 9, 0, 0] : Fin 5 → Nat) a + S1x64x1x32x128.size a ≤ S1x64x16x32x128.size a
  inb_S1x64x16x32x128_S1x64x1x32x128_0_0_10_0_0 : ∀ a, (![0, 0, 10, 0, 0] : Fin 5 → Nat) a + S1x64x1x32x128.size a ≤ S1x64x16x32x128.size a
  inb_S1x64x16x32x128_S1x64x1x32x128_0_0_11_0_0 : ∀ a, (![0, 0, 11, 0, 0] : Fin 5 → Nat) a + S1x64x1x32x128.size a ≤ S1x64x16x32x128.size a
  inb_S1x64x16x32x128_S1x64x1x32x128_0_0_12_0_0 : ∀ a, (![0, 0, 12, 0, 0] : Fin 5 → Nat) a + S1x64x1x32x128.size a ≤ S1x64x16x32x128.size a
  inb_S1x64x16x32x128_S1x64x1x32x128_0_0_13_0_0 : ∀ a, (![0, 0, 13, 0, 0] : Fin 5 → Nat) a + S1x64x1x32x128.size a ≤ S1x64x16x32x128.size a
  inb_S1x64x16x32x128_S1x64x1x32x128_0_0_14_0_0 : ∀ a, (![0, 0, 14, 0, 0] : Fin 5 → Nat) a + S1x64x1x32x128.size a ≤ S1x64x16x32x128.size a
  inb_S1x64x16x32x128_S1x64x1x32x128_0_0_15_0_0 : ∀ a, (![0, 0, 15, 0, 0] : Fin 5 → Nat) a + S1x64x1x32x128.size a ≤ S1x64x16x32x128.size a
  inb_S64x1x1_S64x1x1_0_0_0 : ∀ a, (![0, 0, 0] : Fin 3 → Nat) a + S64x1x1.size a ≤ S64x1x1.size a
  h_S64x1x1 : 0 < S64x1x1.numel
  shapeCasts_S64x1x1_S64x1x1 : S64x1x1.ShapeCasts S64x1x1
  broadcasts_S64x1x1_S64x32x128 : S64x1x1.Broadcasts S64x32x128
  reduces_S64x32x128_S32x128 : S64x32x128.Reduces [0] S32x128
  shapeCasts_S32x128_S1x32x128 : S32x128.ShapeCasts S1x32x128
  broadcasts_S1x32x128_S64x32x128 : S1x32x128.Broadcasts S64x32x128
  inb_S1x64x32x128_S1x64x32x128_0_0_0_0 : ∀ a, (![0, 0, 0, 0] : Fin 4 → Nat) a + S1x64x32x128.size a ≤ S1x64x32x128.size a
  h_S1x64x32x128 : 0 < S1x64x32x128.numel
  shapeCasts_S1x64x32x128_S64x32x128 : S1x64x32x128.ShapeCasts S64x32x128
  shapeCasts_S64x32x128_S1x64x32x128 : S64x32x128.ShapeCasts S1x64x32x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x16x32x128.size a ≤ S8x64x16x128x128.size a
  hwx0_0 : ∀ i : grid0.Coords, EltTy.bits .f32 = 32 ∨ (Rect.block (s := S8x64x16x128x128) S1x64x16x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1x1.size a ≤ S64x1x1.size a
  hwx0_1 : ∀ i : grid0.Coords, EltTy.bits .f32 = 32 ∨ (Rect.block (s := S64x1x1) S64x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32x128.size a ≤ S8x64x128x128.size a
  hwx0_2 : ∀ i : grid0.Coords, EltTy.bits .f32 = 32 ∨ (Rect.block (s := S8x64x128x128) S1x64x32x128.size (cc0_transform_2 i) (hinb0_2 i)).WholeWords (EltTy.packing .f32)

variable [Facts₀]

abbrev win0_0 : Pipeline.Window sig grid0 :=
  Pipeline.Window.ofSpec (Memref.whole main_arg0) S1x64x16x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x16x128x128 : Shape := ⟨5, ![8, 64, 16, 128, 128]⟩
abbrev S64 : Shape := ⟨1, ![64]⟩
abbrev S_ : Shape := ⟨0, ![]⟩
abbrev S8x64x128x128 : Shape := ⟨4, ![8, 64, 128, 128]⟩
abbrev S1x64x1x1 : Shape := ⟨4, ![1, 64, 1, 1]⟩
abbrev S8x128x128 : Shape := ⟨3, ![8, 128, 128]⟩
abbrev S8x1x128x128 : Shape := ⟨4, ![8, 1, 128, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x64x16x128x128, .f32⟩
  | .hbm, ⟨1, _⟩ => ⟨S64, .f32⟩
  | .hbm, ⟨2, _⟩ => ⟨S_, .f32⟩
  | .hbm, ⟨3, _⟩ => ⟨S8x64x128x128, .f32⟩
  | .hbm, ⟨4, _⟩ => ⟨S_, .f32⟩
  | .hbm, ⟨5, _⟩ => ⟨S8x64x128x128, .f32⟩
  | .hbm, ⟨6, _⟩ => ⟨S8x64x128x128, .f32⟩
  | .hbm, ⟨7, _⟩ => ⟨S1x64x1x1, .f32⟩
  | .hbm, ⟨8, _⟩ => ⟨S8x64x128x128, .f32⟩
  | .hbm, ⟨9, _⟩ => ⟨S8x64x128x128, .f32⟩
  | .hbm, ⟨10, _⟩ => ⟨S_, .f32⟩
  | .hbm, ⟨11, _⟩ => ⟨S8x128x128, .f32⟩
  | .hbm, ⟨12, _⟩ => ⟨S_, .f32⟩
  | .hbm, ⟨13, _⟩ => ⟨S8x128x128, .f32⟩
  | .hbm, ⟨14, _⟩ => ⟨S8x128x128, .f32⟩
  | .hbm, ⟨15, _⟩ => ⟨S8x1x128x128, .f32⟩
  | .hbm, ⟨16, _⟩ => ⟨S8x64x128x128, .f32⟩
  | .hbm, ⟨17, _⟩ => ⟨S8x64x128x128, .f32⟩
  | .hbm, ⟨18, _⟩ => ⟨S8x64x128x128, .f32⟩
  | .hbm, ⟨19, _⟩ => ⟨S_, .f32⟩
  | .hbm, ⟨20, _⟩ => ⟨S8x128x128, .f32⟩
  | .hbm, ⟨21, _⟩ => ⟨S8x1x128x128, .f32⟩
  | .hbm, ⟨22, _⟩ => ⟨S8x64x128x128, .f32⟩
  | .hbm, ⟨23, _⟩ => ⟨S8x64x128x128, .f32⟩
  | .hbm, ⟨24, _⟩ => ⟨S8x64x128x128, .f32⟩
  | .hbm, ⟨25, _⟩ => ⟨S_, .f32⟩
  | .hbm, ⟨26, _⟩ => ⟨S8x64x128x128, .f32⟩
  | .hbm, ⟨27, _⟩ => ⟨S8x64x128x128, .f32⟩
  | _, _ => ⟨S8x64x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S8x64x16x128x128_S8x64x128x128_d2 : S8x64x16x128x128.ReducesTo [2] S8x64x128x128
  h_S_ : 0 < S_.numel
  bcast_S_S8x64x128x128 : S_.BroadcastsInDim S8x64x128x128 (![] : Fin 0 → Fin S8x64x128x128.rank)
  bcast_S64_S1x64x1x1_1 : S64.BroadcastsInDim S1x64x1x1 (![1] : Fin 1 → Fin S1x64x1x1.rank)
  bcast_S1x64x1x1_S8x64x128x128_0_1_2_3 : S1x64x1x1.BroadcastsInDim S8x64x128x128 (![0, 1, 2, 3] : Fin 4 → Fin S8x64x128x128.rank)
  reducesTo_S8x64x128x128_S8x128x128_d1 : S8x64x128x128.ReducesTo [1] S8x128x128
  bcast_S_S8x128x128 : S_.BroadcastsInDim S8x128x128 (![] : Fin 0 → Fin S8x128x128.rank)
  bcast_S8x128x128_S8x1x128x128_0_2_3 : S8x128x128.BroadcastsInDim S8x1x128x128 (![0, 2, 3] : Fin 3 → Fin S8x1x128x128.rank)
  bcast_S8x1x128x128_S8x64x128x128_0_1_2_3 : S8x1x128x128.BroadcastsInDim S8x64x128x128 (![0, 1, 2, 3] : Fin 4 → Fin S8x64x128x128.rank)

variable [Facts₀]

class Facts : Prop extends Facts₀ where

variable [Facts]
-- ==== Proof.DepthSoftmax.lean ====
/-
  What both programs compute, as one function of the two argument arrays.

  `x` is an array [8, 64, 16, 128, 128] (sample, channel, depth, row, column) and `b` a vector of 64 channel biases.
  For a sample `n`, a row `h` and a column `w`, the LOGIT of channel `k` is the mean of `x` over the sixteen depths —
  their sum divided by 16 — plus the channel's bias. The result at (n, c, h, w) is the softmax of the 64 logits at
  channel `c`, taken the numerically careful way (every logit lowered by the largest before the exponential), put
  through `tanh` and doubled. The largest logit is taken starting from −∞ (the f32 word 0xFF800000), and once more
  against −∞, as both programs do; the words of −∞ and of 2.0 are kept as words: both programs spell the same ones.
-/
import Idealize.ShloMosaic.PureOps.Ideal
import Idealize.ShloMosaic.Lib.ValueIdx

noncomputable section

namespace Cert.DepthSoftmax

open Idealize.ShloMosaic Idealize.ShloMosaic.ValueIdx

/-- The largest of 64 logits, from −∞, compared once more with −∞. -/
def top (ℓ : Fin 64 → EReal) : EReal :=
  max (Ideal.ofBits .f32 0xFF800000#32)
    ((Finset.univ : Finset (Fin 64)).fold max (Ideal.ofBits .f32 0xFF800000#32) ℓ)

/-- Softmax of 64 logits at channel `c`, through `tanh`, doubled. -/
def tanhSoftmax (ℓ : Fin 64 → EReal) (c : Fin 64) : EReal :=
  Ideal.tanh (Ideal.div (Ideal.exp (ℓ c - top ℓ)) (∑ k : Fin 64, Ideal.exp (ℓ k - top ℓ)))
    * Ideal.ofBits .f32 0x40000000#32

/-- Channel `k`'s logit at sample `n`, row `h`, column `w`: the depth mean plus the bias. -/
def logit (x : (⟨5, ![8, 64, 16, 128, 128]⟩ : Shape).Idx → EReal) (b : (⟨1, ![64]⟩ : Shape).Idx → EReal)
    (n : Fin 8) (h w : Fin 128) (k : Fin 64) : EReal :=
  Ideal.div (∑ d : Fin 16, x (ix5 n k d h w)) (Ideal.ofBits .f32 0x41800000#32) + b (ix1 k)

/-- The result array. -/
def result (x : (⟨5, ![8, 64, 16, 128, 128]⟩ : Shape).Idx → EReal) (b : (⟨1, ![64]⟩ : Shape).Idx → EReal) :
    (⟨4, ![8, 64, 128, 128]⟩ : Shape).Idx → EReal :=
  fun i => tanhSoftmax (logit x b (i 0) (i 2) (i 3)) (i 1)

theorem result_apply (x : (⟨5, ![8, 64, 16, 128, 128]⟩ : Shape).Idx → EReal) (b : (⟨1, ![64]⟩ : Shape).Idx → EReal)
    (n : Fin 8) (c : Fin 64) (h w : Fin 128) :
    result x b (ix4 n c h w) = tanhSoftmax (logit x b n h w) c := rfl

end Cert.DepthSoftmax

end
-- ==== Proof.ChannelVector.lean ====
/-
  The kernel's vector operations on one block, read at an index.

  A block's 64 × 32 × 128 logits form one vector `L` (channel, row, column). The softmax over channels is taken with
  whole-vector operations: the largest logit of each (row, column) — a reduction over the channel axis, compared once
  more with −∞ — is cast to [1, 32, 128] and spread back over the 64 channels, subtracted, exponentiated; the
  exponentials' sum over the channel axis is spread back in the same way and divides; then `tanh` and the doubling.
  Read at (c, h, w) this is `tanhSoftmax` of the 64 logits `k ↦ L (k, h, w)`: a reduction over the leading axis at
  (h, w) ranges over the indices (k, h, w), and a [32, 128] vector cast to [1, 32, 128] and broadcast to [64, 32, 128]
  is read at (k, h, w) where the vector is read at (h, w).

  Also here: a [1, 64, 1, 32, 128] slab cast to [64, 32, 128] is read at (k, h, w) where the slab is read at
  (0, k, 0, h, w), and a [64, 1, 1] column broadcast to [64, 32, 128] where the column is read at (k, 0, 0).
-/
import Idealize.ShloMosaic.PureOps.Ideal.Laws
import Idealize.ShloMosaic.Lib.ValueIdx
import Idealize.ShloMosaic.Lib.Pipeline.Value
import proofs.«165680_j25056839205169_2_alg».proof.Proof.DepthSoftmax

noncomputable section

namespace Cert.ChannelVector

open Idealize.ShloMosaic Idealize.ShloMosaic.ValueIdx

variable {α : Type}

/-- A depth slab [1, 64, 1, 32, 128] cast to [64, 32, 128], at (k, h, w): the two positions in row-major order agree. -/
theorem slab_apply (P : (⟨5, ![1, 64, 1, 32, 128]⟩ : Shape).Idx → α)
    (hc : (⟨5, ![1, 64, 1, 32, 128]⟩ : Shape).ShapeCasts ⟨3, ![64, 32, 128]⟩) (k : Fin 64) (h : Fin 32) (w : Fin 128) :
    shapeCast ⟨3, ![64, 32, 128]⟩ P hc (ix3 k h w) = P (ix5 0 k 0 h w) :=
  shapeCast_apply P hc (ix3 k h w) (ix5 0 k 0 h w) (by
    rw [Shape.rowMajor_val_five, Shape.rowMajor_val_three]
    show (((0 * 64 + k.val) * 1 + 0) * 32 + h.val) * 128 + w.val = (k.val * 32 + h.val) * 128 + w.val
    omega)

/-- A column [64, 1, 1] (cast to its own shape) broadcast to [64, 32, 128], at (k, h, w): the column at (k, 0, 0). -/
theorem column_apply (v : (⟨3, ![64, 1, 1]⟩ : Shape).Idx → α)
    (hc : (⟨3, ![64, 1, 1]⟩ : Shape).ShapeCasts ⟨3, ![64, 1, 1]⟩)
    (hb : (⟨3, ![64, 1, 1]⟩ : Shape).Broadcasts ⟨3, ![64, 32, 128]⟩) (k : Fin 64) (h : Fin 32) (w : Fin 128) :
    broadcastTo ⟨3, ![64, 32, 128]⟩ (shapeCast ⟨3, ![64, 1, 1]⟩ v hc) hb (ix3 k h w) = v (ix3 k 0 0) := by
  rw [shapeCast_self]
  exact broadcastTo_apply v hb (ix3 k h w) (ix3 k 0 0) (fun a => match a with
    | ⟨0, _⟩ => by show k.val = (if (64 : Nat) = 1 then 0 else k.val); rw [if_neg (by decide)]
    | ⟨1, _⟩ => by show 0 = (if (1 : Nat) = 1 then 0 else h.val); rw [if_pos rfl]
    | ⟨2, _⟩ => by show 0 = (if (1 : Nat) = 1 then 0 else w.val); rw [if_pos rfl])

/-- A [32, 128] vector cast to [1, 32, 128] and broadcast to [64, 32, 128], at (k, h, w): the vector at (h, w). -/
theorem spread_apply (r : (⟨2, ![32, 128]⟩ : Shape).Idx → α)
    (hc : (⟨2, ![32, 128]⟩ : Shape).ShapeCasts ⟨3, ![1, 32, 128]⟩)
    (hb : (⟨3, ![1, 32, 128]⟩ : Shape).Broadcasts ⟨3, ![64, 32, 128]⟩) (k : Fin 64) (h : Fin 32) (w : Fin 128) :
    broadcastTo ⟨3, ![64, 32, 128]⟩ (shapeCast ⟨3, ![1, 32, 128]⟩ r hc) hb (ix3 k h w) = r (ix2 h w) :=
  (broadcastTo_apply _ hb (ix3 k h w) (ix3 0 h w) (fun a => match a with
    | ⟨0, _⟩ => by show 0 = (if (1 : Nat) = 1 then 0 else k.val); rw [if_pos rfl]
    | ⟨1, _⟩ => by show h.val = (if (32 : Nat) = 1 then 0 else h.val); rw [if_neg (by decide)]
    | ⟨2, _⟩ => by show w.val = (if (128 : Nat) = 1 then 0 else w.val); rw [if_neg (by decide)])).trans
  (shapeCast_apply r hc (ix3 0 h w) (ix2 h w) (by
    rw [Shape.rowMajor_val_two, Shape.rowMajor_val_three]
    show h.val * 128 + w.val = (0 * 32 + h.val) * 128 + w.val
    omega))

/-- The index over (h, w) whose channel coordinate is `k` is (k, h, w). -/
theorem lift_channel (hr : (⟨3, ![64, 32, 128]⟩ : Shape).Reduces [0] ⟨2, ![32, 128]⟩) (h : Fin 32) (w : Fin 128)
    (k : Fin 64) : hr.lift (ix2 h w) k = ix3 k h w :=
  funext fun a => Fin.ext (by match a with | ⟨0, _⟩ => rfl | ⟨1, _⟩ => rfl | ⟨2, _⟩ => rfl)

theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl

/-- The logits lowered by their largest and exponentiated, as the kernel's vector operations on the logits vector. -/
abbrev lowered (L : FVec Ideal ⟨3, ![64, 32, 128]⟩ .f32)
    (hr : (⟨3, ![64, 32, 128]⟩ : Shape).Reduces [0] ⟨2, ![32, 128]⟩) (hφ : FKind.Formats .f32)
    (hmax : (0xFF800000#32 : BitVec 32) = FKind.neutral .maximumf .f32 hφ)
    (hc : (⟨2, ![32, 128]⟩ : Shape).ShapeCasts ⟨3, ![1, 32, 128]⟩)
    (hb : (⟨3, ![1, 32, 128]⟩ : Shape).Broadcasts ⟨3, ![64, 32, 128]⟩) : FVec Ideal ⟨3, ![64, 32, 128]⟩ .f32 :=
  exp (subf L (broadcastTo ⟨3, ![64, 32, 128]⟩ (shapeCast ⟨3, ![1, 32, 128]⟩
    (maximumf (broadcast ⟨2, ![32, 128]⟩ (Scalar.ofBits .f32 0xFF800000#32))
      (multiReduction .maximumf [0] ⟨2, ![32, 128]⟩ L 0xFF800000#32 hr hφ hmax)) hc) hb))

/-- The channel softmax through `tanh`, doubled, as the kernel's vector operations on the logits vector. -/
abbrev softmaxed (L : FVec Ideal ⟨3, ![64, 32, 128]⟩ .f32)
    (hr : (⟨3, ![64, 32, 128]⟩ : Shape).Reduces [0] ⟨2, ![32, 128]⟩) (hφ : FKind.Formats .f32)
    (hmax : (0xFF800000#32 : BitVec 32) = FKind.neutral .maximumf .f32 hφ)
    (hadd : (0x00000000#32 : BitVec 32) = FKind.neutral .add .f32 hφ)
    (hc : (⟨2, ![32, 128]⟩ : Shape).ShapeCasts ⟨3, ![1, 32, 128]⟩)
    (hb : (⟨3, ![1, 32, 128]⟩ : Shape).Broadcasts ⟨3, ![64, 32, 128]⟩) : FVec Ideal ⟨3, ![64, 32, 128]⟩ .f32 :=
  mulf (tanh (divf (lowered L hr hφ hmax hc hb)
      (broadcastTo ⟨3, ![64, 32, 128]⟩ (shapeCast ⟨3, ![1, 32, 128]⟩
        (multiReduction .add [0] ⟨2, ![32, 128]⟩ (lowered L hr hφ hmax hc hb) 0x00000000#32 hr hφ hadd) hc) hb)))
    (broadcast ⟨3, ![64, 32, 128]⟩ (Scalar.ofBits .f32 0x40000000#32))

/-- The largest logit over the channels, at (h, w), as the reduction computes it. -/
theorem max_channels (L : FVec Ideal ⟨3, ![64, 32, 128]⟩ .f32)
    (hr : (⟨3, ![64, 32, 128]⟩ : Shape).Reduces [0] ⟨2, ![32, 128]⟩) (hφ : FKind.Formats .f32)
    (hmax : (0xFF800000#32 : BitVec 32) = FKind.neutral .maximumf .f32 hφ) (h : Fin 32) (w : Fin 128) :
    multiReduction .maximumf [0] ⟨2, ![32, 128]⟩ L 0xFF800000#32 hr hφ hmax (ix2 h w)
      = (Finset.univ : Finset (Fin 64)).fold max (Ideal.ofBits .f32 0xFF800000#32) (fun k => L (ix3 k h w)) :=
  (Ideal.multiReduction_maximumf_single L _ hr hφ hmax (ix2 h w)).trans
    (congrArg (fun f : Fin 64 → EReal => (Finset.univ : Finset (Fin 64)).fold max (Ideal.ofBits .f32 0xFF800000#32) f)
      (funext fun k => congrArg L (lift_channel hr h w k)))

/-- A sum over the channels, at (h, w), as the reduction computes it. -/
theorem sum_channels (E : FVec Ideal ⟨3, ![64, 32, 128]⟩ .f32)
    (hr : (⟨3, ![64, 32, 128]⟩ : Shape).Reduces [0] ⟨2, ![32, 128]⟩) (hφ : FKind.Formats .f32)
    (hadd : (0x00000000#32 : BitVec 32) = FKind.neutral .add .f32 hφ) (h : Fin 32) (w : Fin 128) :
    multiReduction .add [0] ⟨2, ![32, 128]⟩ E 0x00000000#32 hr hφ hadd (ix2 h w) = ∑ k : Fin 64, E (ix3 k h w) :=
  (Ideal.multiReduction_add_single E _ hr hφ hadd (ix2 h w)).trans
    (Finset.sum_congr rfl fun k _ => congrArg E (lift_channel hr h w k))

/-- A lowered, exponentiated logit at (k, h, w). -/
theorem lowered_apply (L : FVec Ideal ⟨3, ![64, 32, 128]⟩ .f32)
    (hr : (⟨3, ![64, 32, 128]⟩ : Shape).Reduces [0] ⟨2, ![32, 128]⟩) (hφ : FKind.Formats .f32)
    (hmax : (0xFF800000#32 : BitVec 32) = FKind.neutral .maximumf .f32 hφ)
    (hc : (⟨2, ![32, 128]⟩ : Shape).ShapeCasts ⟨3, ![1, 32, 128]⟩)
    (hb : (⟨3, ![1, 32, 128]⟩ : Shape).Broadcasts ⟨3, ![64, 32, 128]⟩) (k : Fin 64) (h : Fin 32) (w : Fin 128) :
    lowered L hr hφ hmax hc hb (ix3 k h w)
      = Ideal.exp (L (ix3 k h w) - DepthSoftmax.top (fun k => L (ix3 k h w))) := by
  show Ideal.exp (L (ix3 k h w) - broadcastTo ⟨3, ![64, 32, 128]⟩ (shapeCast ⟨3, ![1, 32, 128]⟩
    (maximumf (broadcast ⟨2, ![32, 128]⟩ (Scalar.ofBits .f32 0xFF800000#32))
      (multiReduction .maximumf [0] ⟨2, ![32, 128]⟩ L 0xFF800000#32 hr hφ hmax)) hc) hb (ix3 k h w)) = _
  rw [spread_apply, maximumf_apply, max_channels]
  rfl

/-- THE BLOCK'S RESULT at (c, h, w): `tanhSoftmax` of the 64 logits over (h, w). -/
theorem softmaxed_apply (L : FVec Ideal ⟨3, ![64, 32, 128]⟩ .f32)
    (hr : (⟨3, ![64, 32, 128]⟩ : Shape).Reduces [0] ⟨2, ![32, 128]⟩) (hφ : FKind.Formats .f32)
    (hmax : (0xFF800000#32 : BitVec 32) = FKind.neutral .maximumf .f32 hφ)
    (hadd : (0x00000000#32 : BitVec 32) = FKind.neutral .add .f32 hφ)
    (hc : (⟨2, ![32, 128]⟩ : Shape).ShapeCasts ⟨3, ![1, 32, 128]⟩)
    (hb : (⟨3, ![1, 32, 128]⟩ : Shape).Broadcasts ⟨3, ![64, 32, 128]⟩) (c : Fin 64) (h : Fin 32) (w : Fin 128) :
    softmaxed L hr hφ hmax hadd hc hb (ix3 c h w) = DepthSoftmax.tanhSoftmax (fun k => L (ix3 k h w)) c := by
  show Ideal.tanh (Ideal.div (lowered L hr hφ hmax hc hb (ix3 c h w))
      (broadcastTo ⟨3, ![64, 32, 128]⟩ (shapeCast ⟨3, ![1, 32, 128]⟩
        (multiReduction .add [0] ⟨2, ![32, 128]⟩ (lowered L hr hφ hmax hc hb) 0x00000000#32 hr hφ hadd) hc) hb
          (ix3 c h w))) * Ideal.ofBits .f32 0x40000000#32 = _
  rw [spread_apply, sum_channels, lowered_apply]
  simp only [lowered_apply]
  rfl

end Cert.ChannelVector

end
-- ==== Proof.LibSixteenth.lean ====
/-
  Scaling a sum of sixteen terms by one sixteenth, on the extended reals.

  The f32 word 0x3D800000 denotes the dyadic 2⁻⁴ = 1/16 and the word 0x41800000 denotes 16. Division by the real 16 is
  the product with 1/16 on EVERY extended real, the two infinities included, so multiplying by the first word and
  dividing by the second are one operation. Addition on the extended reals is commutative and associative, so sixteen
  terms added one after the other onto zero are the sum over `Fin 16`. Together: the sixteen terms accumulated from
  the zero word and multiplied by the word of 1/16 are their sum divided by the word of 16. No term needs to be finite.
-/
import Idealize.ShloMosaic.PureOps.Ideal
import Idealize.ShloMosaic.PureOps.Ideal.Laws

noncomputable section

namespace Cert.Sixteenth

open Idealize.ShloMosaic

/-- The f32 word of `16.0` denotes the real 16. -/
theorem ofBits_sixteen : Ideal.ofBits .f32 0x41800000#32 = ((16 : ℝ) : EReal) := by
  simp [Ideal.ofBits, Ideal.ieee, -EReal.coe_mul]; norm_num

/-- The f32 word of `0.0625` denotes the real 1/16 exactly: it is a power of two. -/
theorem ofBits_sixteenth : Ideal.ofBits .f32 0x3D800000#32 = ((1 / 16 : ℝ) : EReal) := by
  simp [Ideal.ofBits, Ideal.ieee, -EReal.coe_mul]; norm_num

/-- Multiplying by the word of 1/16 is dividing by the word of 16, on every extended real. -/
theorem mul_sixteenth_eq_div (x : EReal) :
    x * Ideal.ofBits .f32 0x3D800000#32 = Ideal.div x (Ideal.ofBits .f32 0x41800000#32) := by
  rw [ofBits_sixteen, ofBits_sixteenth, Ideal.div_coe (by norm_num : (16 : ℝ) ≠ 0)]

/-- Sixteen terms added one after the other onto zero are their sum. -/
theorem accumulate_eq_sum (f : Fin 16 → EReal) :
    0 + f 0 + f 1 + f 2 + f 3 + f 4 + f 5 + f 6 + f 7 + f 8 + f 9 + f 10 + f 11 + f 12 + f 13 + f 14 + f 15
      = ∑ k : Fin 16, f k := by
  simp only [Fin.sum_univ_castSucc, Fin.sum_univ_zero]
  rfl

/-- The sixteen terms accumulated from the zero word, times the word of 1/16, are their sum divided by the word of 16. -/
theorem accumulate_mul_sixteenth (f : Fin 16 → EReal) :
    (Ideal.ofBits .f32 0x00000000#32 + f 0 + f 1 + f 2 + f 3 + f 4 + f 5 + f 6 + f 7 + f 8 + f 9 + f 10 + f 11 + f 12
        + f 13 + f 14 + f 15) * Ideal.ofBits .f32 0x3D800000#32
      = Ideal.div (∑ k : Fin 16, f k) (Ideal.ofBits .f32 0x41800000#32) := by
  rw [Ideal.ofBits_zero_f32, accumulate_eq_sum, mul_sixteenth_eq_div]

end Cert.Sixteenth

end
-- ==== Proof.KernelBlock.lean ====
/-
  What the kernel leaves in one output block, as a function of the two input blocks.

  At a grid point the kernel holds a block `x0` of `x`, [1, 64, 16, 32, 128] (all 64 channels and 16 depths of 32 rows),
  and the bias as a column `x1`, [64, 1, 1]. It loads the sixteen depth slabs of `x0` one by one, adds them in order onto
  zero, multiplies by the f32 word of 1/16, adds the bias column, and takes the channel softmax through `tanh`, doubled,
  with whole-vector operations; one store writes the [1, 64, 32, 128] result block. So the block at (0, c, h, w) is
  `tanhSoftmax` at `c` of the 64 logits `k ↦ (Σ_d x0 (0, k, d, h, w)) / 16 + x1 (k, 0, 0)`: the sixteen slabs read at
  one index give the sixteen depths, adding them in order is their sum, and the product with 1/16 is the quotient by 16
  on every extended real.
-/
import proofs.«165680_j25056839205169_2_alg».proof.Proof.Gen.KernelIdeal.Value
import proofs.«165680_j25056839205169_2_alg».proof.Proof.ChannelVector
import proofs.«165680_j25056839205169_2_alg».proof.Proof.LibSixteenth

noncomputable section

namespace Cert.KernelIdeal.Block

open Cert.KernelIdeal Cert.KernelIdeal.Gen Idealize.ShloMosaic Idealize.ShloMosaic.TcCoe Idealize.ShloMosaic.ValueIdx

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The load of depth slab `d` of the block, read at (0, k, 0, h, w), is the block at (0, k, d, h, w). -/
theorem slab_load (x0 : Vec Ideal S1x64x16x32x128 .f32) (d : Nat) (hd : d < 16)
    (inb : ∀ a, (![0, 0, d, 0, 0] : Fin 5 → Nat) a + S1x64x1x32x128.size a ≤ S1x64x16x32x128.size a)
    (k : Fin 64) (h : Fin 32) (w : Fin 128) :
    View.ld x0 (Rect.unit (s := S1x64x16x32x128) ![0, 0, d, 0, 0] S1x64x1x32x128.size inb) (ix5 0 k 0 h w)
      = x0 (ix5 0 k ⟨d, hd⟩ h w) := by
  show x0 ((Rect.unit (s := S1x64x16x32x128) ![0, 0, d, 0, 0] S1x64x1x32x128.size inb).idx (ix5 0 k 0 h w)) = _
  refine congrArg x0 (funext fun a => Fin.ext ?_)
  match a with
  | ⟨0, _⟩ => show 0 + 1 * 0 = 0; omega
  | ⟨1, _⟩ => show 0 + 1 * k.val = k.val; omega
  | ⟨2, _⟩ => show d + 1 * 0 = d; omega
  | ⟨3, _⟩ => show 0 + 1 * h.val = h.val; omega
  | ⟨4, _⟩ => show 0 + 1 * w.val = w.val; omega

/-- The block's 64 × 32 × 128 logits as the kernel computes them from its seventeen loads: the sixteen slabs cast to
    [64, 32, 128] and added in order onto zero, the product with the word of 1/16, the bias column spread over rows and
    columns. -/
abbrev blockLogits (P0 : Vec Ideal S1x64x1x32x128 .f32) (P1 : Vec Ideal S1x64x1x32x128 .f32) (P2 : Vec Ideal S1x64x1x32x128 .f32) (P3 : Vec Ideal S1x64x1x32x128 .f32) (P4 : Vec Ideal S1x64x1x32x128 .f32) (P5 : Vec Ideal S1x64x1x32x128 .f32) (P6 : Vec Ideal S1x64x1x32x128 .f32) (P7 : Vec Ideal S1x64x1x32x128 .f32) (P8 : Vec Ideal S1x64x1x32x128 .f32) (P9 : Vec Ideal S1x64x1x32x128 .f32) (P10 : Vec Ideal S1x64x1x32x128 .f32) (P11 : Vec Ideal S1x64x1x32x128 .f32) (P12 : Vec Ideal S1x64x1x32x128 .f32) (P13 : Vec Ideal S1x64x1x32x128 .f32) (P14 : Vec Ideal S1x64x1x32x128 .f32) (P15 : Vec Ideal S1x64x1x32x128 .f32) (Q : Vec Ideal S64x1x1 .f32) : FVec Ideal S64x32x128 .f32 :=
  addf (mulf (addf (addf (addf (addf (addf (addf (addf (addf (addf (addf (addf (addf (addf (addf (addf (addf (broadcast S64x32x128 (Scalar.ofBits .f32 0x00000000#32)) (shapeCast S64x32x128 P0 shapeCasts_S1x64x1x32x128_S64x32x128)) (shapeCast S64x32x128 P1 shapeCasts_S1x64x1x32x128_S64x32x128)) (shapeCast S64x32x128 P2 shapeCasts_S1x64x1x32x128_S64x32x128)) (shapeCast S64x32x128 P3 shapeCasts_S1x64x1x32x128_S64x32x128)) (shapeCast S64x32x128 P4 shapeCasts_S1x64x1x32x128_S64x32x128)) (shapeCast S64x32x128 P5 shapeCasts_S1x64x1x32x128_S64x32x128)) (shapeCast S64x32x128 P6 shapeCasts_S1x64x1x32x128_S64x32x128)) (shapeCast S64x32x128 P7 shapeCasts_S1x64x1x32x128_S64x32x128)) (shapeCast S64x32x128 P8 shapeCasts_S1x64x1x32x128_S64x32x128)) (shapeCast S64x32x128 P9 shapeCasts_S1x64x1x32x128_S64x32x128)) (shapeCast S64x32x128 P10 shapeCasts_S1x64x1x32x128_S64x32x128)) (shapeCast S64x32x128 P11 shapeCasts_S1x64x1x32x128_S64x32x128)) (shapeCast S64x32x128 P12 shapeCasts_S1x64x1x32x128_S64x32x128)) (shapeCast S64x32x128 P13 shapeCasts_S1x64x1x32x128_S64x32x128)) (shapeCast S64x32x128 P14 shapeCasts_S1x64x1x32x128_S64x32x128)) (shapeCast S64x32x128 P15 shapeCasts_S1x64x1x32x128_S64x32x128)) (broadcast S64x32x128 (Scalar.ofBits .f32 0x3D800000#32)))
    (broadcastTo S64x32x128 (shapeCast S64x1x1 Q shapeCasts_S64x1x1_S64x1x1) broadcasts_S64x1x1_S64x32x128)

/-- A logit of the block at (k, h, w). -/
theorem blockLogits_apply (P0 : Vec Ideal S1x64x1x32x128 .f32) (P1 : Vec Ideal S1x64x1x32x128 .f32) (P2 : Vec Ideal S1x64x1x32x128 .f32) (P3 : Vec Ideal S1x64x1x32x128 .f32) (P4 : Vec Ideal S1x64x1x32x128 .f32) (P5 : Vec Ideal S1x64x1x32x128 .f32) (P6 : Vec Ideal S1x64x1x32x128 .f32) (P7 : Vec Ideal S1x64x1x32x128 .f32) (P8 : Vec Ideal S1x64x1x32x128 .f32) (P9 : Vec Ideal S1x64x1x32x128 .f32) (P10 : Vec Ideal S1x64x1x32x128 .f32) (P11 : Vec Ideal S1x64x1x32x128 .f32) (P12 : Vec Ideal S1x64x1x32x128 .f32) (P13 : Vec Ideal S1x64x1x32x128 .f32) (P14 : Vec Ideal S1x64x1x32x128 .f32) (P15 : Vec Ideal S1x64x1x32x128 .f32) (Q : Vec Ideal S64x1x1 .f32) (k : Fin 64) (h : Fin 32) (w : Fin 128) :
    blockLogits P0 P1 P2 P3 P4 P5 P6 P7 P8 P9 P10 P11 P12 P13 P14 P15 Q (ix3 k h w)
      = (Ideal.ofBits .f32 0x00000000#32 + P0 (ix5 0 k 0 h w) + P1 (ix5 0 k 0 h w) + P2 (ix5 0 k 0 h w) + P3 (ix5 0 k 0 h w) + P4 (ix5 0 k 0 h w) + P5 (ix5 0 k 0 h w) + P6 (ix5 0 k 0 h w) + P7 (ix5 0 k 0 h w) + P8 (ix5 0 k 0 h w) + P9 (ix5 0 k 0 h w) + P10 (ix5 0 k 0 h w) + P11 (ix5 0 k 0 h w) + P12 (ix5 0 k 0 h w) + P13 (ix5 0 k 0 h w) + P14 (ix5 0 k 0 h w) + P15 (ix5 0 k 0 h w)) * Ideal.ofBits .f32 0x3D800000#32 + Q (ix3 k 0 0) := by
  simp only [blockLogits, addf_apply, mulf_apply, broadcast_apply, ChannelVector.slab_apply, ChannelVector.column_apply]
  rfl

/-- The one store's payload is the channel softmax (through `tanh`, doubled) of those logits, cast to the block's shape. -/
theorem payload_eq (P0 : Vec Ideal S1x64x1x32x128 .f32) (P1 : Vec Ideal S1x64x1x32x128 .f32) (P2 : Vec Ideal S1x64x1x32x128 .f32) (P3 : Vec Ideal S1x64x1x32x128 .f32) (P4 : Vec Ideal S1x64x1x32x128 .f32) (P5 : Vec Ideal S1x64x1x32x128 .f32) (P6 : Vec Ideal S1x64x1x32x128 .f32) (P7 : Vec Ideal S1x64x1x32x128 .f32) (P8 : Vec Ideal S1x64x1x32x128 .f32) (P9 : Vec Ideal S1x64x1x32x128 .f32) (P10 : Vec Ideal S1x64x1x32x128 .f32) (P11 : Vec Ideal S1x64x1x32x128 .f32) (P12 : Vec Ideal S1x64x1x32x128 .f32) (P13 : Vec Ideal S1x64x1x32x128 .f32) (P14 : Vec Ideal S1x64x1x32x128 .f32) (P15 : Vec Ideal S1x64x1x32x128 .f32) (Q : Vec Ideal S64x1x1 .f32) :
    k0_pay1 (k0_pay5 (k0_pay3 (k0_pay2 P0 P1 P2 P3 P4 P5) P6 P7 P8 P9 P10 P11) (k0_pay4 P12) P13 P14 P15 Q)
      = shapeCast S1x64x32x128 (ChannelVector.softmaxed (blockLogits P0 P1 P2 P3 P4 P5 P6 P7 P8 P9 P10 P11 P12 P13 P14 P15 Q) reduces_S64x32x128_S32x128
          (.inl rfl) rfl rfl shapeCasts_S32x128_S1x32x128 broadcasts_S1x32x128_S64x32x128)
          shapeCasts_S64x32x128_S1x64x32x128 :=
  Value.lay2_0_eq P0 P1 P2 P3 P4 P5 P6 P7 P8 P9 P10 P11 P12 P13 P14 P15 Q

/-- THE BLOCK the body leaves, at (0, c, h, w). -/
theorem block_value (x0 : Vec Ideal S1x64x16x32x128 .f32) (x1 : Vec Ideal S64x1x1 .f32) (z : Fin 1) (c : Fin 64)
    (h : Fin 32) (w : Fin 128) :
    out0_2 x0 x1 (ix4 z c h w)
      = DepthSoftmax.tanhSoftmax (fun k => Ideal.div (∑ d : Fin 16, x0 (ix5 0 k d h w))
          (Ideal.ofBits .f32 0x41800000#32) + x1 (ix3 k 0 0)) c := by
  unfold out0_2
  rw [View.canon_unit_zero zero4, payload_eq]
  refine (shapeCast_apply _ _ (ix4 z c h w) (ix3 c h w) (by
    rw [Shape.rowMajor_val_three, Shape.rowMajor_val_four]
    show (c.val * 32 + h.val) * 128 + w.val = ((z.val * 64 + c.val) * 32 + h.val) * 128 + w.val
    have := z.isLt
    omega)).trans ?_
  refine (ChannelVector.softmaxed_apply _ _ _ _ _ _ _ c h w).trans ?_
  refine congrArg (fun ℓ => DepthSoftmax.tanhSoftmax ℓ c) (funext fun k => ?_)
  rw [blockLogits_apply, View.ld_unit_zero (S := S64x1x1) zero3,
    slab_load x0 0 (by decide) _ k h w,
    slab_load x0 1 (by decide) _ k h w,
    slab_load x0 2 (by decide) _ k h w,
    slab_load x0 3 (by decide) _ k h w,
    slab_load x0 4 (by decide) _ k h w,
    slab_load x0 5 (by decide) _ k h w,
    slab_load x0 6 (by decide) _ k h w,
    slab_load x0 7 (by decide) _ k h w,
    slab_load x0 8 (by decide) _ k h w,
    slab_load x0 9 (by decide) _ k h w,
    slab_load x0 10 (by decide) _ k h w,
    slab_load x0 11 (by decide) _ k h w,
    slab_load x0 12 (by decide) _ k h w,
    slab_load x0 13 (by decide) _ k h w,
    slab_load x0 14 (by decide) _ k h w,
    slab_load x0 15 (by decide) _ k h w]
  exact congrArg (· + x1 (ix3 k 0 0)) (Sixteenth.accumulate_mul_sixteenth (fun d : Fin 16 => x0 (ix5 0 k d h w)))

end Cert.KernelIdeal.Block

end
-- ==== Proof.KernelArray.lean ====
/-
  From the kernel's blocks to its result array.

  The grid has 8 × 4 points, a sample `n` and a band `hb` of 32 rows. At that point the block of `x` is sample `n`, all
  channels and depths, rows 32·hb … 32·hb + 31; the bias column is the whole bias (the bias vector reshaped to
  [64, 1, 1] before the kernel is launched); and the output block is sample `n`, all channels, the same 32 rows. So
  what the point writes back is that block of `DepthSoftmax.result` of the two arguments: the block's logits are the
  array's logits at the rows it covers. The 32 output blocks tile the result array — the point covering (n, ·, r, ·) is
  the one with sample `n` and band `r / 32` — so after the run the array is `DepthSoftmax.result` everywhere.
-/
import proofs.«165680_j25056839205169_2_alg».proof.Proof.KernelBlock
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- Where the three windows' blocks sit, decided over the 32 grid points: the block of `x` moves with the output block
    (same sample, same band of rows), the bias column does not move, and the output's block indices stay in range. -/
theorem block_indices : ∀ t : Fin cfg0.N,
    win0_0.index t (0 : Fin 5) = win0_2.index t (0 : Fin 4) ∧ win0_0.index t (1 : Fin 5) = 0
    ∧ win0_0.index t (2 : Fin 5) = 0 ∧ win0_0.index t (3 : Fin 5) = win0_2.index t (2 : Fin 4)
    ∧ win0_0.index t (4 : Fin 5) = 0
    ∧ win0_1.index t (0 : Fin 3) = 0 ∧ win0_1.index t (1 : Fin 3) = 0 ∧ win0_1.index t (2 : Fin 3) = 0
    ∧ win0_2.index t (1 : Fin 4) = 0 ∧ win0_2.index t (3 : Fin 4) = 0
    ∧ win0_2.index t (0 : Fin 4) < 8 ∧ win0_2.index t (2 : Fin 4) < 4 :=
  (by decide +kernel : ∀ t : Fin grid0.N, _)

/-- Every (sample, band) is some point's output block. -/
theorem block_onto : ∀ (q0 : Fin 8) (q2 : Fin 4), ∃ t : Fin cfg0.N, win0_2.index t = ![q0.val, 0, q2.val, 0] :=
  (by decide +kernel : ∀ (q0 : Fin 8) (q2 : Fin 4), ∃ t : Fin grid0.N, win0_2.index t = ![q0.val, 0, q2.val, 0])

/-- The block of `x` at point `t`, read at (0, k, d, h, w): the argument at (n, k, d, 32·hb + h, w). -/
theorem x_block (c : Dev nD) (t : Fin cfg0.N) (n : Fin 8) (H : Fin 128) (k : Fin 64) (d : Fin 16) (h : Fin 32)
    (w : Fin 128) (hn : n.val = win0_2.index t (0 : Fin 4)) (hH : H.val = win0_2.index t (2 : Fin 4) * 32 + h.val) :
    iblk m c 0 t (ix5 0 k d h w)
      = (m ((c : Thread nD τ).loc main_arg0) : S8x64x16x128x128.Idx → EReal) (ix5 n k d H w) := by
  obtain ⟨e0, e1, e2, e3, e4, -⟩ := block_indices t
  show V m c main_arg0 (((cfg0.win 0).blk t).view.emb (ix5 0 k d h w)) = _
  rw [V_main_arg0]
  refine congrArg _ (funext fun a => Fin.ext ?_)
  match a with
  | ⟨0, _⟩ => show win0_0.index t (0 : Fin 5) * 1 + 1 * 0 = n.val; omega
  | ⟨1, _⟩ => show win0_0.index t (1 : Fin 5) * 64 + 1 * k.val = k.val; omega
  | ⟨2, _⟩ => show win0_0.index t (2 : Fin 5) * 16 + 1 * d.val = d.val; omega
  | ⟨3, _⟩ => show win0_0.index t (3 : Fin 5) * 32 + 1 * h.val = H.val; omega
  | ⟨4, _⟩ => show win0_0.index t (4 : Fin 5) * 128 + 1 * w.val = w.val; omega

/-- The array the bias window stages is the bias argument reshaped to a column, as the one host operation before the
    kernel leaves it. -/
theorem bias_array (c : Dev nD) :
    (V m c main_v0 : S64x1x1.Idx → EReal)
      = shapeCast S64x1x1 (m ((c : Thread nD τ).loc main_arg1) : S64.Idx → EReal) shapeCasts_S64_S64x1x1 := by
  dsimp only [Gen.V, Gen.hostOps0]
  after_results
  rfl

/-- The bias column at any point, read at (k, 0, 0): the bias argument at `k`. -/
theorem bias_block (c : Dev nD) (t : Fin cfg0.N) (k : Fin 64) :
    iblk m c 1 t (ix3 k 0 0) = (m ((c : Thread nD τ).loc main_arg1) : S64.Idx → EReal) (ix1 k) := by
  obtain ⟨-, -, -, -, -, e5, e6, e7, -⟩ := block_indices t
  show V m c main_v0 (((cfg0.win 1).blk t).view.emb (ix3 k 0 0)) = _
  rw [bias_array]
  refine shapeCast_apply _ _ _ (ix1 k) ?_
  rw [Shape.rowMajor_val_one, Shape.rowMajor_val_three]
  show k.val = ((win0_1.index t (0 : Fin 3) * 64 + 1 * k.val) * 1 + (win0_1.index t (1 : Fin 3) * 1 + 1 * 0)) * 1
    + (win0_1.index t (2 : Fin 3) * 1 + 1 * 0)
  omega

/-- WHAT POINT `t` WRITES BACK is block `t` of `DepthSoftmax.result` of the two arguments. -/
theorem flushed_eq (c : Dev nD) (t : Fin cfg0.N) :
    (dats m 0 c).flushed 2 t = ((cfg0.win 2).blk t).view.read (Elt Ideal)
      (DepthSoftmax.result (m ((c : Thread nD τ).loc main_arg0)) (m ((c : Thread nD τ).loc main_arg1))) := by
  rw [Value.flushed2]
  obtain ⟨-, -, -, -, -, -, -, -, e8, e9, b0, b2⟩ := block_indices t
  refine funext fun (j : S1x64x32x128.Idx) => ?_
  obtain ⟨z, cc, h, w, rfl⟩ : ∃ (z : Fin 1) (cc : Fin 64) (h : Fin 32) (w : Fin 128), j = ix4 z cc h w :=
    ⟨j 0, j 1, j 2, j 3, eq_ix4 j⟩
  have hemb : ((cfg0.win 2).blk t).view.emb (ix4 z cc h w)
      = ix4 (⟨win0_2.index t (0 : Fin 4), b0⟩ : Fin 8) cc
          (⟨win0_2.index t (2 : Fin 4) * 32 + h.val, by have := h.isLt; omega⟩ : Fin 128) w := by
    funext a
    apply Fin.ext
    match a with
    | ⟨0, _⟩ => show win0_2.index t (0 : Fin 4) * 1 + 1 * z.val = win0_2.index t (0 : Fin 4); have := z.isLt; omega
    | ⟨1, _⟩ => show win0_2.index t (1 : Fin 4) * 64 + 1 * cc.val = cc.val; omega
    | ⟨2, _⟩ => show win0_2.index t (2 : Fin 4) * 32 + 1 * h.val = win0_2.index t (2 : Fin 4) * 32 + h.val; omega
    | ⟨3, _⟩ => show win0_2.index t (3 : Fin 4) * 128 + 1 * w.val = w.val; omega
  show out0_2 (iblk m c 0 t) (iblk m c 1 t) (ix4 z cc h w)
    = DepthSoftmax.result _ _ (((cfg0.win 2).blk t).view.emb (ix4 z cc h w))
  rw [hemb, DepthSoftmax.result_apply]
  refine (Block.block_value (iblk m c 0 t) (iblk m c 1 t) z cc h w).trans ?_
  refine congrArg (fun ℓ => DepthSoftmax.tanhSoftmax ℓ cc) (funext fun k => ?_)
  unfold DepthSoftmax.logit
  rw [bias_block m c t k]
  refine congrArg (fun s => Ideal.div s (Ideal.ofBits .f32 0x41800000#32) + _) (Finset.sum_congr rfl fun d _ => ?_)
  exact x_block m c t _ _ k d h w rfl rfl

/-- An index of the result array is in point `t`'s block iff each coordinate is in the block's range on its axis. -/
theorem mem_block (t : Fin cfg0.N) (i : S8x64x128x128.Idx) :
    i ∈ ((cfg0.win 2).blk t).view.set ↔ ∀ a : Fin 4, win0_2.index t a * S1x64x32x128.size a ≤ (i a).val
      ∧ (i a).val < win0_2.index t a * S1x64x32x128.size a + S1x64x32x128.size a := by
  show i ∈ ((View.whole main_v1).slice (win0_2.rect t)).set ↔ _
  rw [View.set_slice_whole, Rect.mem_set_unit]
  exact Iff.rfl

/-- The output blocks tile the result array: (n, ·, r, ·) is in the block of sample `n`, band `r / 32`. -/
theorem covered (i : S8x64x128x128.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 128 := (i 2).isLt
  have hi3 : (i 3).val < 128 := (i 3).isLt
  obtain ⟨t, ht⟩ := block_onto ⟨(i 0).val, hi0⟩ ⟨(i 2).val / 32, by omega⟩
  have q0 : win0_2.index t (0 : Fin 4) = (i 0).val := congrFun ht 0
  have q1 : win0_2.index t (1 : Fin 4) = 0 := congrFun ht 1
  have q2 : win0_2.index t (2 : Fin 4) = (i 2).val / 32 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 32 ≤ (i 2).val ∧ (i 2).val < win0_2.index t (2 : Fin 4) * 32 + 32; omega
  | ⟨3, _⟩ => show win0_2.index t (3 : Fin 4) * 128 ≤ (i 3).val ∧ (i 3).val < win0_2.index t (3 : Fin 4) * 128 + 128; omega

/-- THE RESULT ARRAY after the run. -/
theorem final (c : Dev nD) : (dats m 0 c).arrAt 2 cfg0.N
    = DepthSoftmax.result (m ((c : Thread nD τ).loc main_arg0)) (m ((c : Thread nD τ).loc main_arg1)) :=
  (dats m 0 c).arrAt_eq_of_cover 2 _ (fun t _ => flushed_eq m c t) covered

/-- The kernel's run, read: the result array at `DepthSoftmax.result` of the arguments, the arguments unchanged. -/
theorem run : θ_run defs (onTc (τ := τ) (main (F := Ideal))) ⟨m, fun _ => 0, ρ⟩ fun r => ∀ c : Dev nD,
      r.2.mem ((c : Thread nD τ).loc main_v1)
        = DepthSoftmax.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceValue.lean ====
/-
  The reference's result is `DepthSoftmax.result` of its two arguments.

  The reference sums `x` over the depth axis from zero, divides by 16, adds the bias spread over samples, rows and
  columns (the logits); takes the channel maximum from −∞ and compares it once more with −∞, spreads it back over the
  channels and subtracts; exponentiates; sums the exponentials over the channels from zero, spreads the sum back and
  divides; `tanh`; doubles. Each operation is read at an index from the generated stage lemmas; the channel maximum —
  a fold of `max` over the channel axis — is read here through its single-axis form: at (n, h, w) it ranges over the
  indices (n, k, h, w). The two zero words the sums start from are the extended real 0.
-/
import proofs.«165680_j25056839205169_2_alg».proof.Proof.Gen.ReferenceIdeal.Read
import proofs.«165680_j25056839205169_2_alg».proof.Proof.DepthSoftmax
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## Where each stage reads its operand -/

theorem depth_idx (n : Fin 8) (k : Fin 64) (h w : Fin 128) (d : Fin 16) :
    idx_main_v0 (ix4 n k h w) d = ix5 n k d h w :=
  funext fun a => Fin.ext (by match a with | ⟨0, _⟩ => rfl | ⟨1, _⟩ => rfl | ⟨2, _⟩ => rfl | ⟨3, _⟩ => rfl | ⟨4, _⟩ => rfl)

theorem bias_idx (n : Fin 8) (k : Fin 64) (h w : Fin 128) : idx_main_v3 (idx_main_v4 (ix4 n k h w)) = ix1 k :=
  funext fun a => Fin.ext (by match a with | ⟨0, _⟩ => rfl)

theorem top_idx (n : Fin 8) (k : Fin 64) (h w : Fin 128) : idx_main_v9 (idx_main_v10 (ix4 n k h w)) = ix3 n h w :=
  funext fun a => Fin.ext (by match a with | ⟨0, _⟩ => rfl | ⟨1, _⟩ => rfl | ⟨2, _⟩ => rfl)

theorem total_idx (n : Fin 8) (k : Fin 64) (h w : Fin 128) : idx_main_v14 (idx_main_v15 (ix4 n k h w)) = ix3 n h w :=
  funext fun a => Fin.ext (by match a with | ⟨0, _⟩ => rfl | ⟨1, _⟩ => rfl | ⟨2, _⟩ => rfl)

theorem channel_idx (n : Fin 8) (h w : Fin 128) (k : Fin 64) : idx_main_v13 (ix3 n h w) k = ix4 n k h w :=
  funext fun a => Fin.ext (by match a with | ⟨0, _⟩ => rfl | ⟨1, _⟩ => rfl | ⟨2, _⟩ => rfl | ⟨3, _⟩ => rfl)

/-- The index over (n, h, w) whose channel coordinate is `k` is (n, k, h, w). -/
theorem lift_channel (hr : S8x64x128x128.Reduces [1] S8x128x128) (n : Fin 8) (h w : Fin 128) (k : Fin 64) :
    hr.lift (ix3 n h w) k = ix4 n k h w :=
  funext fun a => Fin.ext (by match a with | ⟨0, _⟩ => rfl | ⟨1, _⟩ => rfl | ⟨2, _⟩ => rfl | ⟨3, _⟩ => rfl)

/-! ## The stages -/

variable (x : (⟨S8x64x16x128x128, .f32⟩ : BufTy).Contents (Elt Ideal)) (b : (⟨S64, .f32⟩ : BufTy).Contents (Elt Ideal))

/-- The logits. -/
theorem logits_apply (n : Fin 8) (k : Fin 64) (h w : Fin 128) :
    val_main_v5 (F := Ideal) x b (ix4 n k h w) = DepthSoftmax.logit x b n h w k := by
  rw [val_main_v5_apply, val_main_v2_apply, val_main_v0_apply, val_main_v1_apply, val_main_v4_apply, val_main_v3_apply,
    bias_idx]
  simp only [depth_idx, val_main_cst_apply, val_main_cst_0_apply, Ideal.ofBits_def, Ideal.ofBits_zero_f32, zero_add,
    Ideal.addf_def, Ideal.hostDivf_def]
  rfl

/-- The largest logit over the channels at (n, h, w), compared once more with −∞. -/
theorem top_apply (n : Fin 8) (h w : Fin 128) :
    val_main_v8 (F := Ideal) x b (ix3 n h w) = DepthSoftmax.top (DepthSoftmax.logit x b n h w) := by
  rw [val_main_v8_apply, val_main_v7_apply, val_main_cst_2_apply]
  unfold val_main_v6
  have hr : S8x64x128x128.Reduces [1] S8x128x128 := by decide
  rw [Host.reduce_eq_fold_single (f := FloatOps.maximumf) _ _ reducesTo_S8x64x128x128_S8x128x128_d1 hr h_S_ (ix3 n h w)]
  unfold DepthSoftmax.top
  refine congrArg (max (Ideal.ofBits .f32 0xFF800000#32)) ?_
  refine congrArg (fun f : Fin 64 → EReal => (Finset.univ : Finset (Fin 64)).fold max (Ideal.ofBits .f32 0xFF800000#32) f)
    (funext fun k => ?_)
  exact (congrArg (val_main_v5 (F := Ideal) x b) (lift_channel hr n h w k)).trans (logits_apply x b n k h w)

/-- A lowered, exponentiated logit. -/
theorem lowered_apply (n : Fin 8) (k : Fin 64) (h w : Fin 128) :
    val_main_v12 (F := Ideal) x b (ix4 n k h w)
      = Ideal.exp (DepthSoftmax.logit x b n h w k - DepthSoftmax.top (DepthSoftmax.logit x b n h w)) := by
  rw [val_main_v12_apply, val_main_v11_apply, val_main_v10_apply, val_main_v9_apply, top_idx, top_apply, logits_apply]
  rfl

/-- THE REFERENCE'S RESULT, index by index. -/
theorem result_eq : val_main_v19 (F := Ideal) x b = DepthSoftmax.result x b := by
  funext i
  obtain ⟨n, c, h, w, rfl⟩ : ∃ (n : Fin 8) (c : Fin 64) (h w : Fin 128), i = ix4 n c h w :=
    ⟨i 0, i 1, i 2, i 3, eq_ix4 i⟩
  rw [DepthSoftmax.result_apply, val_main_v19_apply, val_main_v18_apply, val_main_cst_4_apply, val_main_v17_apply,
    val_main_v16_apply, val_main_v15_apply, val_main_v14_apply, total_idx, val_main_v13_apply, val_main_cst_3_apply,
    lowered_apply]
  simp only [channel_idx, lowered_apply, Ideal.ofBits_def, Ideal.ofBits_zero_f32, zero_add]
  rfl

end Cert.ReferenceIdeal.RefValue

end
-- ==== Proof.lean ====
/-
  Depth mean, bias, channel softmax, tanh, doubling: a tiled kernel against its whole-array reference.

  Both programs take `x` : f32[8, 64, 16, 128, 128] (sample, channel, depth, row, column) and a bias : f32[64], and
  return f32[8, 64, 128, 128]: at (n, c, h, w) the softmax over the 64 channels of the logits
  `mean_d x (n, k, d, h, w) + bias k`, through `tanh`, doubled (`DepthSoftmax.result`, Proof/DepthSoftmax.lean).

  The reference does it with whole-array operations (Proof/ReferenceValue.lean). The kernel walks a grid of 8 samples by
  4 bands of 32 rows; at a point it adds the block's sixteen depth slabs in order onto zero, multiplies by the f32 word of
  0.0625 where the reference divides by 16.0, adds the bias column and takes the softmax over the channel axis of the
  block (Proof/ChannelVector.lean, Proof/KernelBlock.lean); the 32 output blocks tile the result (Proof/KernelArray.lean).

  Read on the extended reals the two agree on EVERY input, finite or not, for three reasons, none of which needs the
  precondition: 0.0625 is the power of two 1/16, and the product with 1/16 is the quotient by 16 on every extended real
  (Proof/LibSixteenth.lean); sixteen terms added in order are their sum, addition being commutative and associative
  there; and a maximum or a sum over the channel axis of a block at (h, w) ranges over the same 64 logits as the
  reference's over the channel axis of the array at (n, 32·hb + h, w). The words of −∞ and of 2.0 are the same in both
  programs and are never evaluated.

  The three frames are the generated frame runs (the reference's is its generated run with the result dropped); the
  idealization rewrote nothing, so its claim is `True`.
-/
import proofs.«165680_j25056839205169_2_alg».proof.Defs
import proofs.«165680_j25056839205169_2_alg».proof.Proof.Gen.Kernel
import proofs.«165680_j25056839205169_2_alg».proof.Proof.Gen.Kernel.Skeleton
import proofs.«165680_j25056839205169_2_alg».proof.Proof.Gen.Kernel.Launch
import proofs.«165680_j25056839205169_2_alg».proof.Proof.Gen.Kernel.Points
import proofs.«165680_j25056839205169_2_alg».proof.Proof.Gen.Kernel.Frame
import proofs.«165680_j25056839205169_2_alg».proof.Proof.Gen.KernelIdeal
import proofs.«165680_j25056839205169_2_alg».proof.Proof.Gen.KernelIdeal.Skeleton
import proofs.«165680_j25056839205169_2_alg».proof.Proof.Gen.KernelIdeal.Launch
import proofs.«165680_j25056839205169_2_alg».proof.Proof.Gen.KernelIdeal.Points
import proofs.«165680_j25056839205169_2_alg».proof.Proof.Gen.KernelIdeal.Frame
import proofs.«165680_j25056839205169_2_alg».proof.Proof.Gen.ReferenceIdeal
import proofs.«165680_j25056839205169_2_alg».proof.Proof.Gen.Pre_finite_inputs
import proofs.«165680_j25056839205169_2_alg».proof.Proof.Gen.KernelIdeal.Value
import proofs.«165680_j25056839205169_2_alg».proof.Proof.Gen.ReferenceIdeal.Run
import proofs.«165680_j25056839205169_2_alg».proof.Proof.Gen.ReferenceIdeal.Read
import proofs.«165680_j25056839205169_2_alg».proof.Proof.KernelArray
import proofs.«165680_j25056839205169_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories agreeing on `x` and the bias, the kernel's result array and the reference's both end at
    `DepthSoftmax.result` of them. -/
theorem algebraic : Cert.algebraic_KernelIdeal_ReferenceIdeal := by
  intro m ρ m' ρ' _ hagree
  refine ⟨fun c => DepthSoftmax.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v19_eq, Cert.ReferenceIdeal.RefValue.result_eq, (hagree c).1,
    (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
